-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1000000 : Shape := ⟨2, ![2, 1000000]⟩
abbrev S1000000 : Shape := ⟨1, ![1000000]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x1000000 32) (main_arg2 : FVec F S1000000 .f32) (main_arg3 : IVec S2x1000000 32) (main_arg4 : FVec F S1000000 .f32) (main_arg5 : FVec F S512x128 .f32) (main_arg6 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S512x128 .f32 := Host.absf main_arg5
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg6 main_v13 main_v16
-- ==== Kernel.lean ====
abbrev S50000x512 : Shape := ⟨2, ![50000, 512]⟩
abbrev S2x1000000 : Shape := ⟨2, ![2, 1000000]⟩
abbrev S1000000 : Shape := ⟨1, ![1000000]⟩
abbrev S512x128 : Shape := ⟨2, ![512, 128]⟩
abbrev S128 : Shape := ⟨1, ![128]⟩
abbrev S50000x128 : Shape := ⟨2, ![50000, 128]⟩
abbrev S2000x512 : Shape := ⟨2, ![2000, 512]⟩
abbrev S2000x128 : Shape := ⟨2, ![2000, 128]⟩
abbrev S1x1000000 : Shape := ⟨2, ![1, 1000000]⟩
abbrev S1000000x1 : Shape := ⟨2, ![1000000, 1]⟩
abbrev S_ : Shape := ⟨0, ![]⟩
abbrev S1000000x128 : Shape := ⟨2, ![1000000, 128]⟩
abbrev S1x50000x128 : Shape := ⟨3, ![1, 50000, 128]⟩
abbrev S2x50000x128 : Shape := ⟨3, ![2, 50000, 128]⟩
abbrev S2x2000x128 : Shape := ⟨3, ![2, 2000, 128]⟩
abbrev S1x1x128 : Shape := ⟨3, ![1, 1, 128]⟩

abbrev nBuf : Space → Nat
  | .hbm => 52
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x1000000, .i32⟩
  | .hbm, ⟨2, _⟩ => ⟨S1000000, .f32⟩
  | .hbm, ⟨3, _⟩ => ⟨S2x1000000, .i32⟩
  | .hbm, ⟨4, _⟩ => ⟨S1000000, .f32⟩
  | .hbm, ⟨5, _⟩ => ⟨S512x128, .f32⟩
  | .hbm, ⟨6, _⟩ => ⟨S128, .f32⟩
  | .hbm, ⟨7, _⟩ => ⟨S50000x128, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S1000000x1, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S1000000x128, .f32⟩
  | .hbm, ⟨23, _⟩ => ⟨S1000000x128, .f32⟩
  | .hbm, ⟨24, _⟩ => ⟨S_, .f32⟩
  | .hbm, ⟨25, _⟩ => ⟨S50000x128, .f32⟩
  | .hbm, ⟨26, _⟩ => ⟨S1000000x1, .i32⟩
  | .hbm, ⟨27, _⟩ => ⟨S50000x128, .f32⟩
  | .hbm, ⟨28, _⟩ => ⟨S1x1000000, .i32⟩
  | .hbm, ⟨29, _⟩ => ⟨S1000000, .i32⟩
  | .hbm, ⟨30, _⟩ => ⟨S1x1000000, .i32⟩
  | .hbm, ⟨31, _⟩ => ⟨S1000000, .i32⟩
  | .hbm, ⟨32, _⟩ => ⟨S1000000x1, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x128, .f32⟩
  | .hbm, ⟨42, _⟩ => ⟨S1000000x128, .f32⟩
  | .hbm, ⟨43, _⟩ => ⟨S1000000x128, .f32⟩
  | .hbm, ⟨44, _⟩ => ⟨S_, .f32⟩
  | .hbm, ⟨45, _⟩ => ⟨S50000x128, .f32⟩
  | .hbm, ⟨46, _⟩ => ⟨S1000000x1, .i32⟩
  | .hbm, ⟨47, _⟩ => ⟨S50000x128, .f32⟩
  | .hbm, ⟨48, _⟩ => ⟨S1x50000x128, .f32⟩
  | .hbm, ⟨49, _⟩ => ⟨S1x50000x128, .f32⟩
  | .hbm, ⟨50, _⟩ => ⟨S2x50000x128, .f32⟩
  | .hbm, ⟨51, _⟩ => ⟨S2x50000x128, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2x2000x128, .f32⟩
  | .local _ .vmem, ⟨6, _⟩ => ⟨S2x2000x128, .f32⟩
  | .local _ .vmem, ⟨7, _⟩ => ⟨S128, .f32⟩
  | .local _ .vmem, ⟨8, _⟩ => ⟨S2x2000x128, .f32⟩
  | .local _ .vmem, ⟨9, _⟩ => ⟨S2x2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2x2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  inb_S2x2000x128_S2x2000x128_0_0_0 : ∀ a, (![0, 0, 0] : Fin 3 → Nat) a + S2x2000x128.size a ≤ S2x2000x128.size a
  h_S2x2000x128 : 0 < S2x2000x128.numel
  shapeCasts_S2x2000x128_S2x2000x128 : S2x2000x128.ShapeCasts S2x2000x128
  inb_S128_S128_0 : ∀ a, (![0] : Fin 1 → Nat) a + S128.size a ≤ S128.size a
  h_S128 : 0 < S128.numel
  shapeCasts_S128_S1x1x128 : S128.ShapeCasts S1x1x128
  broadcasts_S1x1x128_S2x2000x128 : S1x1x128.Broadcasts S2x2000x128
  dot_S2000x512_S512x128_S2000x128_1_0_0_1_n_n_wf : DotDims.WF S2000x512 S512x128 S2000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x2000x128.size a ≤ S2x50000x128.size a
  hwx1_0 : ∀ i : grid1.Coords, EltTy.bits .f32 = 32 ∨ (Rect.block (s := S2x50000x128) S2x2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x2000x128.size a ≤ S2x50000x128.size a
  hwx1_2 : ∀ i : grid1.Coords, EltTy.bits .f32 = 32 ∨ (Rect.block (s := S2x50000x128) S2x2000x128.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S2x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2x2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1000000 : Shape := ⟨2, ![2, 1000000]⟩
abbrev S1000000 : Shape := ⟨1, ![1000000]⟩
abbrev S512x128 : Shape := ⟨2, ![512, 128]⟩
abbrev S128 : Shape := ⟨1, ![128]⟩
abbrev S50000x128 : Shape := ⟨2, ![50000, 128]⟩
abbrev S1x1000000 : Shape := ⟨2, ![1, 1000000]⟩
abbrev S1000000x1 : Shape := ⟨2, ![1000000, 1]⟩
abbrev S_ : Shape := ⟨0, ![]⟩
abbrev S1000000x128 : Shape := ⟨2, ![1000000, 128]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 63
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1000000, .i32⟩
  | .hbm, ⟨2, _⟩ => ⟨S1000000, .f32⟩
  | .hbm, ⟨3, _⟩ => ⟨S2x1000000, .i32⟩
  | .hbm, ⟨4, _⟩ => ⟨S1000000, .f32⟩
  | .hbm, ⟨5, _⟩ => ⟨S512x128, .f32⟩
  | .hbm, ⟨6, _⟩ => ⟨S128, .f32⟩
  | .hbm, ⟨7, _⟩ => ⟨S50000x128, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S1000000x1, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S1000000x128, .f32⟩
  | .hbm, ⟨23, _⟩ => ⟨S1000000x128, .f32⟩
  | .hbm, ⟨24, _⟩ => ⟨S_, .f32⟩
  | .hbm, ⟨25, _⟩ => ⟨S50000x128, .f32⟩
  | .hbm, ⟨26, _⟩ => ⟨S1000000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S1x1000000, .i32⟩
  | .hbm, ⟨32, _⟩ => ⟨S1000000, .i32⟩
  | .hbm, ⟨33, _⟩ => ⟨S1x1000000, .i32⟩
  | .hbm, ⟨34, _⟩ => ⟨S1000000, .i32⟩
  | .hbm, ⟨35, _⟩ => ⟨S1000000x1, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x128, .f32⟩
  | .hbm, ⟨45, _⟩ => ⟨S1000000x128, .f32⟩
  | .hbm, ⟨46, _⟩ => ⟨S1000000x128, .f32⟩
  | .hbm, ⟨47, _⟩ => ⟨S_, .f32⟩
  | .hbm, ⟨48, _⟩ => ⟨S50000x128, .f32⟩
  | .hbm, ⟨49, _⟩ => ⟨S1000000x1, .i32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S1x50000x128, .f32⟩
  | .hbm, ⟨61, _⟩ => ⟨S1x50000x128, .f32⟩
  | .hbm, ⟨62, _⟩ => ⟨S2x50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_cst : Ref sig .tc := ⟨.hbm, 54, rfl⟩
abbrev main_call0_v0 : Ref sig .tc := ⟨.hbm, 55, rfl⟩
abbrev main_v41 : Ref sig .tc := ⟨.hbm, 56, rfl⟩
abbrev main_call1_cst : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x512_S512x128_S50000x128_1_0_0_1_n_n_wf : DotDims.WF S50000x512 S512x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf

class Facts : Prop extends Facts₀ where

variable [Facts]
-- ==== Proof.KernelRun.lean ====
/-
  The whole program read as one run, with the result named.

  The program is a dense projection on the device, two sparse products on the host, and a bias-and-clamp on the
  device. Its run passes through three stretches: the first device region, the host operations, the second device
  region. This module states the run once more with the result array named beside the seven argument arrays: after
  every weakly fair execution the result holds what the second region's write-backs leave, and the arguments are as
  launched. The later modules say what that array is, index by index.
-/
import proofs.«171705_j7876970021469_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array then holds what the second region's
    write-backs leave of its entry contents, and every argument array is as launched. -/
theorem run_named : θ_run defs (onTc (τ := τ) (main (F := F))) ⟨m, fun _ => 0, ρ⟩ (fun r => ∀ c : Dev nD,
      r.2.mem ((c.tc : Thread nD τ).loc main_v38) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v38 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Whole

end
-- ==== Proof.BiasClamp.lean ====
/-
  The second device region: a bias along the last axis, then a clamp below at zero.

  The region walks the stacked array [2, 50000, 128] in 25 slabs of 2000 node rows. At a slab it loads the slab of
  both branches and the whole bias vector, adds the bias entry of each lane, takes the maximum with zero, and writes
  the slab back. So entry (b, r, l) of what the region leaves is max (a (b, r, l) + bias l, 0), where a is the
  array the region finds: the slabs cover every node row once.
-/
import proofs.«171705_j7876970021469_1_alg».proof.Proof.Gen.KernelIdeal.Frame
import Idealize.ShloMosaic.Lib.Pipeline.Value
import Idealize.ShloMosaic.Lib.ValueIdx

set_option maxRecDepth 16384

noncomputable section

namespace Cert.KernelIdeal.BiasClamp

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The stacked array with the bias entry of each lane added and the sum clamped below at zero. -/
def biasClamp (a : S2x50000x128.Idx → Elt F .f32) (bias : S128.Idx → Elt F .f32) : S2x50000x128.Idx → Elt F .f32 :=
  fun j => FloatOps.maximumf (FloatOps.addf (a j) (bias (ix1 (⟨(j 2).val, (j 2).isLt⟩ : Fin 128))))
    (FloatOps.ofBits .f32 0x00000000#32)

/-- The bias vector stood up as [1, 1, 128] and repeated over a slab reads, at (b, r, l), its entry l. -/
theorem lanes_apply {α : Type} (x : S128.Idx → α) (h1 : S128.ShapeCasts S1x1x128) (h2 : S1x1x128.Broadcasts S2x2000x128)
    (b : Fin 2) (r : Fin 2000) (l : Fin 128) :
    broadcastTo S2x2000x128 (shapeCast S1x1x128 x h1) h2 (ix3 b r l) = x (ix1 l) := by
  rw [broadcastTo_apply (shapeCast S1x1x128 x h1) h2 (ix3 b r l) (ix3 (0 : Fin 1) (0 : Fin 1) l) (fun a => by
    match a with
    | ⟨0, _⟩ => rfl
    | ⟨1, _⟩ => rfl
    | ⟨2, _⟩ => rfl)]
  exact shapeCast_apply x h1 _ (ix1 l) (by
    rw [Shape.rowMajor_val_one, Shape.rowMajor_val_three]
    show l.val = (0 * 1 + 0) * 128 + l.val
    omega)

/-- The slab's stored value at (b, r, l): the loaded slab's entry plus the bias entry of lane l, clamped at zero. -/
theorem slab_apply (x0 : Vec F S2x2000x128 .f32) (x1 : Vec F S128 .f32) (b : Fin 2) (r : Fin 2000) (l : Fin 128) :
    k1_pay1 x0 x1 (ix3 b r l)
      = FloatOps.maximumf (FloatOps.addf (x0 (ix3 b r l)) (x1 (ix1 l))) (FloatOps.ofBits .f32 0x00000000#32) := by
  unfold k1_pay1
  show FloatOps.maximumf (FloatOps.addf (shapeCast S2x2000x128 x0 shapeCasts_S2x2000x128_S2x2000x128 (ix3 b r l))
    (broadcastTo S2x2000x128 (shapeCast S1x1x128 x1 shapeCasts_S128_S1x1x128) broadcasts_S1x1x128_S2x2000x128 (ix3 b r l))) _ = _
  rw [shapeCast_self, lanes_apply]
  rfl

theorem hz3 : (![0, 0, 0] : Fin 3 → Nat) = fun _ => 0 := funext fun a => by fin_cases a <;> rfl
theorem hz1 : (![0] : Fin 1 → Nat) = fun _ => 0 := funext fun a => by fin_cases a <;> rfl

/-- The three windows' block indices at a point: the slab index on the node axis, zero elsewhere; the bias window
    stays at its one block. -/
theorem idx_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 1) = 0
    ∧ win1_2.index t (0 : Fin 3) = 0
    ∧ win1_2.index t (1 : Fin 3) = t.val
    ∧ win1_2.index t (2 : Fin 3) = 0 :=
  (by decide +kernel : ∀ t : Fin grid1.N, _)

/-- Every slab of the node axis is some point's. -/
theorem slab_of : ∀ q : Fin 25, ∃ t : Fin cfg1.N, win1_2.index t = ![0, q.val, 0] :=
  (by decide +kernel : ∀ q : Fin 25, ∃ t : Fin grid1.N, win1_2.index t = ![0, q.val, 0])

section
variable (V : (c : Dev nD) → (b : Ref sig .tc) → Buf (Elt F) ((c : Thread nD τ).loc b))

/-- What point t writes back is slab t of the clamped array. -/
theorem flushed_eq (c : Dev nD) (t : Fin cfg1.N) :
    (dat1 V c).flushed 2 t = ((cfg1.win 2).blk t).view.read (Elt F) (biasClamp (V c main_v37) (V c main_arg6)) := by
  show (cfg1.win 2).cut (grid1.coords t) ((dat1 V c).after 2 t) = _
  rw [after1_2]
  unfold out1_2
  rw [View.canon_unit_zero hz3]
  simp only [View.ld_unit_zero (S := S2x2000x128) hz3, View.ld_unit_zero (S := S128) hz1]
  funext j
  obtain ⟨b, r, l, rfl⟩ : ∃ (b : Fin 2) (r : Fin 2000) (l : Fin 128), j = ix3 b r l := ⟨j 0, j 1, j 2, eq_ix3 j⟩
  show k1_pay1 (iblk1 V c 0 t) (iblk1 V c 1 t) (ix3 b r l)
    = biasClamp (V c main_v37) (V c main_arg6) (((cfg1.win 2).blk t).view.emb (ix3 b r l))
  rw [slab_apply (iblk1 V c 0 t) (iblk1 V c 1 t) b r l]
  unfold biasClamp
  obtain ⟨e0, e1, e2, e3, e4, e5, e6⟩ := idx_facts t
  have h0 : iblk1 V c 0 t (ix3 b r l) = V c main_v37 (((cfg1.win 2).blk t).view.emb (ix3 b r l)) := by
    show V c main_v37 (((cfg1.win 0).blk t).view.emb (ix3 b r l)) = _
    refine congrArg (V c main_v37) (funext fun a => Fin.ext ?_)
    match a with
    | ⟨0, _⟩ =>
      show win1_0.index t (0 : Fin 3) * 2 + 1 * b.val = win1_2.index t (0 : Fin 3) * 2 + 1 * b.val
      omega
    | ⟨1, _⟩ =>
      show win1_0.index t (1 : Fin 3) * 2000 + 1 * r.val = win1_2.index t (1 : Fin 3) * 2000 + 1 * r.val
      omega
    | ⟨2, _⟩ =>
      show win1_0.index t (2 : Fin 3) * 128 + 1 * l.val = win1_2.index t (2 : Fin 3) * 128 + 1 * l.val
      omega
  have h1 : iblk1 V c 1 t (ix1 l)
      = V c main_arg6 (ix1 (⟨((((cfg1.win 2).blk t).view.emb (ix3 b r l)) 2).val,
          ((((cfg1.win 2).blk t).view.emb (ix3 b r l)) 2).isLt⟩ : Fin 128)) := by
    show V c main_arg6 (((cfg1.win 1).blk t).view.emb (ix1 l)) = _
    refine congrArg (V c main_arg6) (funext fun a => Fin.ext ?_)
    match a with
    | ⟨0, _⟩ =>
      show win1_1.index t (0 : Fin 1) * 128 + 1 * l.val = win1_2.index t (2 : Fin 3) * 128 + 1 * l.val
      omega
  rw [h0, h1]

/-- An index of the stacked array lies in point t's slab iff each coordinate lies in the slab's range on its axis. -/
theorem mem_slab (t : Fin cfg1.N) (i : S2x50000x128.Idx) :
    i ∈ ((cfg1.win 2).blk t).view.set ↔ ∀ a : Fin 3, win1_2.index t a * S2x2000x128.size a ≤ (i a).val
      ∧ (i a).val < win1_2.index t a * S2x2000x128.size a + S2x2000x128.size a := by
  show i ∈ ((View.whole main_v38).slice (win1_2.rect t)).set ↔ _
  rw [View.set_slice_whole, Rect.mem_set_unit]
  exact Iff.rfl

/-- Every entry of the stacked array lies in the slab of the point that holds its node row. -/
theorem covered (i : S2x50000x128.Idx) :
    ∃ t : Fin cfg1.N, (cfg1.win 2).flush t = true ∧ i ∈ ((cfg1.win 2).blk t).view.set := by
  have hi0 : (i 0).val < 2 := (i 0).isLt
  have hi1 : (i 1).val < 50000 := (i 1).isLt
  have hi2 : (i 2).val < 128 := (i 2).isLt
  obtain ⟨t, ht⟩ := slab_of ⟨(i 1).val / 2000, by omega⟩
  have q0 : win1_2.index t (0 : Fin 3) = 0 := congrFun ht 0
  have q1 : win1_2.index t (1 : Fin 3) = (i 1).val / 2000 := congrFun ht 1
  have q2 : win1_2.index t (2 : Fin 3) = 0 := congrFun ht 2
  refine ⟨t, flush1_2 t, ?_⟩
  rw [mem_slab]
  intro a
  match a with
  | ⟨0, _⟩ =>
    show win1_2.index t (0 : Fin 3) * 2 ≤ (i 0).val ∧ (i 0).val < win1_2.index t (0 : Fin 3) * 2 + 2
    omega
  | ⟨1, _⟩ =>
    show win1_2.index t (1 : Fin 3) * 2000 ≤ (i 1).val ∧ (i 1).val < win1_2.index t (1 : Fin 3) * 2000 + 2000
    omega
  | ⟨2, _⟩ =>
    show win1_2.index t (2 : Fin 3) * 128 ≤ (i 2).val ∧ (i 2).val < win1_2.index t (2 : Fin 3) * 128 + 128
    omega

/-- The array the region leaves is the clamped array, whole. -/
theorem final (c : Dev nD) : (dat1 V c).arrAt 2 cfg1.N = biasClamp (V c main_v37) (V c main_arg6) :=
  (dat1 V c).arrAt_eq_of_cover 2 (biasClamp (V c main_v37) (V c main_arg6)) (fun t _ => flushed_eq V c t) covered

end

end Cert.KernelIdeal.BiasClamp

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.DenseProj.lean ====
/-
  The first device region: the dense projection x · W, 2000 node rows at a time.

  The region walks the node rows in 25 strips of 2000. At a strip it loads the strip of x, [2000, 512], and the whole
  weight matrix W, [512, 128], and writes back their matrix product into a zero accumulator. The operands pass through
  a narrower float format on the way in, which over the extended reals changes nothing. So entry (i, q) of what the
  region leaves is the sum over n of x (i, n) · W (n, q): the strips cover every node row once.
-/
import proofs.«171705_j7876970021469_1_alg».proof.Proof.Gen.KernelIdeal.Frame
import proofs.«171705_j7876970021469_1_alg».proof.Proof.LibDenseBlock
import Idealize.ShloMosaic.Lib.Pipeline.Value
import Idealize.ShloMosaic.Lib.ValueIdx
import Idealize.ShloMosaic.PureOps.Ideal.Laws

set_option maxRecDepth 16384

noncomputable section

namespace Cert.KernelIdeal.DenseProj

open Cert.KernelIdeal Cert.KernelIdeal.Gen
open Idealize.ShloMosaic Idealize.ShloMosaic.TcCoe Idealize.SL.Sem
open Idealize.ShloMosaic.ValueIdx
open Idealize.ShloMosaic.Pipeline (Dat)

/-- The matrix product of the node features and the weights over the extended reals, entry by entry. -/
def proj (x : (⟨S50000x512, .f32⟩ : BufTy).Contents (Elt Ideal)) (w : (⟨S512x128, .f32⟩ : BufTy).Contents (Elt Ideal)) :
    (⟨S50000x128, .f32⟩ : BufTy).Contents (Elt Ideal) :=
  fun j => ∑ n : Fin 512, x (ix2 (⟨(j 0).val, (j 0).isLt⟩ : Fin 50000) n) * w (ix2 n (⟨(j 1).val, (j 1).isLt⟩ : Fin 128))

/-- The strip's stored value at (p, q): row p of the loaded strip against column q of the weights. -/
theorem strip_apply (x : Vec Ideal S2000x512 .f32) (w : Vec Ideal S512x128 .f32) (p : Fin 2000) (q : Fin 128) :
    k0_pay1 (F := Ideal) x w (ix2 p q) = ∑ n : Fin 512, x (ix2 p n) * w (ix2 n q) := by
  unfold k0_pay1
  exact DenseBlock.matmul_zero_apply Facts₀.dot_S2000x512_S512x128_S2000x128_1_0_0_1_n_n_wf
    (truncf .bf16 x Facts₀.bitsLt_bf16_f32) (truncf .bf16 w Facts₀.bitsLt_bf16_f32) p q

theorem hz2 : (![0, 0] : Fin 2 → Nat) = fun _ => 0 := funext fun a => by fin_cases a <;> rfl

/-- The three windows' block indices at a point: the strip index on the node axis for x and for the result, zero
    elsewhere; the weights stay at their one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every strip of the node axis is some point's. -/
theorem strip_of : ∀ q : Fin 25, ∃ t : Fin cfg0.N, win0_2.index t = ![q.val, 0] :=
  (by decide +kernel : ∀ q : Fin 25, ∃ t : Fin grid0.N, win0_2.index t = ![q.val, 0])

section
variable (V : (c : Dev nD) → (b : Ref sig .tc) → Buf (Elt Ideal) ((c : Thread nD τ).loc b))

/-- What point t writes back is strip t of the product. -/
theorem flushed_eq (c : Dev nD) (t : Fin cfg0.N) :
    (dat0 V c).flushed 2 t = ((cfg0.win 2).blk t).view.read (Elt Ideal) (proj (V c main_arg0) (V c main_arg5)) := by
  show (cfg0.win 2).cut (grid0.coords t) ((dat0 V c).after 2 t) = _
  rw [after0_2]
  unfold out0_2
  rw [View.canon_unit_zero hz2]
  simp only [View.ld_unit_zero (S := S2000x512) hz2, View.ld_unit_zero (S := S512x128) hz2]
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = proj (V c main_arg0) (V c main_arg5) (((cfg0.win 2).blk t).view.emb (ix2 p q))
  rw [strip_apply (iblk0 V c 0 t) (iblk0 V c 1 t) p q]
  unfold proj
  obtain ⟨e0, e1, e2, e3, e4⟩ := idx_facts t
  refine Finset.sum_congr rfl fun n _ => ?_
  have h0 : iblk0 V c 0 t (ix2 p n)
      = V c main_arg0 (ix2 (⟨((((cfg0.win 2).blk t).view.emb (ix2 p q)) 0).val,
          ((((cfg0.win 2).blk t).view.emb (ix2 p q)) 0).isLt⟩ : Fin 50000) n) := by
    show V c main_arg0 (((cfg0.win 0).blk t).view.emb (ix2 p n)) = _
    refine congrArg (V c main_arg0) (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 512 + 1 * n.val = n.val
      omega
  have h1 : iblk0 V c 1 t (ix2 n q)
      = V c main_arg5 (ix2 n (⟨((((cfg0.win 2).blk t).view.emb (ix2 p q)) 1).val,
          ((((cfg0.win 2).blk t).view.emb (ix2 p q)) 1).isLt⟩ : Fin 128)) := by
    show V c main_arg5 (((cfg0.win 1).blk t).view.emb (ix2 n q)) = _
    refine congrArg (V c main_arg5) (funext fun a => Fin.ext ?_)
    match a with
    | ⟨0, _⟩ =>
      show win0_1.index t (0 : Fin 2) * 512 + 1 * n.val = n.val
      omega
    | ⟨1, _⟩ =>
      show win0_1.index t (1 : Fin 2) * 128 + 1 * q.val = win0_2.index t (1 : Fin 2) * 128 + 1 * q.val
      omega
  rw [h0, h1]

/-- An entry of the product lies in point t's strip iff each coordinate lies in the strip's range on its axis. -/
theorem mem_strip (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Every entry of the product lies in the strip of the point that holds its node row. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := strip_of ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_strip]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The array the region leaves is the product, whole. -/
theorem final (c : Dev nD) : (dat0 V c).arrAt 2 cfg0.N = proj (V c main_arg0) (V c main_arg5) :=
  (dat0 V c).arrAt_eq_of_cover 2 (proj (V c main_arg0) (V c main_arg5)) (fun t _ => flushed_eq V c t) covered

end

end Cert.KernelIdeal.DenseProj

end
-- ==== Proof.Between.lean ====
/-
  Between the two device regions: the two sparse products and their stacking, on the host.

  A sparse product takes the projected features pre, [50000, 128], an index pair array idx, [2, 1000000], and edge
  weights vals, [1000000]. Row 1 of idx names, per edge, the node whose projected row is gathered (a negative index
  counted from the end); the gathered row is scaled by the edge's weight; row 0 of idx names the node into whose row
  the scaled row is added, starting from zero. The host forms this product twice, from the same projected features
  and the two graphs, and stacks the two results into [2, 50000, 128]: that stack is what the second region finds.
  Nothing on the host writes an argument array, so the second region finds the bias as launched.
-/
import proofs.«171705_j7876970021469_1_alg».proof.Proof.Gen.KernelIdeal.Frame
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]

/-- The destination node of each edge: row 0 of the index pairs. -/
def dst (idx : (⟨S2x1000000, .i32⟩ : BufTy).Contents (Elt F)) : (⟨S1000000, .i32⟩ : BufTy).Contents (Elt F) :=
  shapeCast _ (extractStridedSlice S1x1000000 ![0, 0] idx Facts₀.slices_S2x1000000_S1x1000000_0_0) Facts₀.shapeCasts_S1x1000000_S1000000

/-- The source node of each edge: row 1 of the index pairs. -/
def src (idx : (⟨S2x1000000, .i32⟩ : BufTy).Contents (Elt F)) : (⟨S1000000, .i32⟩ : BufTy).Contents (Elt F) :=
  shapeCast _ (extractStridedSlice S1x1000000 ![1, 0] idx Facts₀.slices_S2x1000000_S1x1000000_1_0) Facts₀.shapeCasts_S1x1000000_S1000000

/-- One sparse product: gather the source rows, scale each by its edge weight, add each into its destination row. -/
def spmm (pre : (⟨S50000x128, .f32⟩ : BufTy).Contents (Elt F)) (idx : (⟨S2x1000000, .i32⟩ : BufTy).Contents (Elt F))
    (vals : (⟨S1000000, .f32⟩ : BufTy).Contents (Elt F)) : (⟨S50000x128, .f32⟩ : BufTy).Contents (Elt F) :=
  Host.scatterAdd scatter_S50000x128_S1000000x1_S1000000x128_1_0_0_1
    (broadcastInDim S50000x128 ![] Facts₀.bcast_S_S50000x128 (constant (F := F) S_ .f32 0x00000000#32))
    (broadcastInDim S1000000x1 ![0] Facts₀.bcast_S1000000_S1000000x1_0 (dst idx))
    (mulf
      (broadcastInDim S1000000x128 ![0, 1] Facts₀.bcast_S1000000x1_S1000000x128_0_1
        (broadcastInDim S1000000x1 ![0] Facts₀.bcast_S1000000_S1000000x1_0 vals))
      (Host.gather gather_S50000x128_S1000000x1_S1000000x128_1_0_n_n_0_1_1128 pre
        (broadcastInDim S1000000x1 ![0] Facts₀.bcast_S1000000_S1000000x1_0
          (select
            (cmpi .slt (src idx) (broadcastInDim S1000000 ![] Facts₀.bcast_S_S1000000 (constantI S_ 32 0#32)))
            (addi (src idx) (broadcastInDim S1000000 ![] Facts₀.bcast_S_S1000000 (constantI S_ 32 50000#32)))
            (src idx)))))

/-- Two node arrays stacked along a new leading axis. -/
def stack (s1 s2 : (⟨S50000x128, .f32⟩ : BufTy).Contents (Elt F)) : (⟨S2x50000x128, .f32⟩ : BufTy).Contents (Elt F) :=
  concatenate S2x50000x128 0
    [⟨S1x50000x128, broadcastInDim S1x50000x128 ![1, 2] Facts₀.bcast_S50000x128_S1x50000x128_1_2 s1⟩,
     ⟨S1x50000x128, broadcastInDim S1x50000x128 ![1, 2] Facts₀.bcast_S50000x128_S1x50000x128_1_2 s2⟩]
    Facts₀.concatenates_S1x50000x128_S1x50000x128_S2x50000x128_d0

variable (m : (ℓ : Loc nD τ sig) → Buf (Elt F) ℓ) (ρ : Dev nD → PrngReg)

/-- The second region finds the stack of the two sparse products of what the first region left. -/
theorem stacked_eq (c : Dev nD) :
    V2 m ρ c main_v37 = stack (spmm (V1 m ρ c main_v0) (V1 m ρ c main_arg1) (V1 m ρ c main_arg2))
      (spmm (V1 m ρ c main_v0) (V1 m ρ c main_arg3) (V1 m ρ c main_arg4)) := by
  apply Eq.trans
  · show StableHlo.after hostOps1 (W1 m ρ c) (Proc.devRef .tc main_v37) = _
    after_results
  · rfl

/-- The first region leaves the projected features where the host reads them. -/
theorem pre_eq (c : Dev nD) : V1 m ρ c main_v0 = (dat0 (V0 m ρ) c).arrAt 2 cfg0.N := (hF0 m ρ c 2).symm

/-- The first region leaves the graphs' arrays as launched. -/
theorem idx1_eq (c : Dev nD) : V1 m ρ c main_arg1 = m ((c : Thread nD τ).loc main_arg1) := W1_of_ne m ρ c main_arg1 (by decide)
theorem vals1_eq (c : Dev nD) : V1 m ρ c main_arg2 = m ((c : Thread nD τ).loc main_arg2) := W1_of_ne m ρ c main_arg2 (by decide)
theorem idx2_eq (c : Dev nD) : V1 m ρ c main_arg3 = m ((c : Thread nD τ).loc main_arg3) := W1_of_ne m ρ c main_arg3 (by decide)
theorem vals2_eq (c : Dev nD) : V1 m ρ c main_arg4 = m ((c : Thread nD τ).loc main_arg4) := W1_of_ne m ρ c main_arg4 (by decide)

/-- The second region finds the bias as launched. -/
theorem bias_eq (c : Dev nD) : V2 m ρ c main_arg6 = m ((c : Thread nD τ).loc main_arg6) :=
  ((W3_arr m ρ c 1).trans (((dat1 (V2 m ρ) c).arrAt_in 1 rfl _).trans (A_eq1 (V2 m ρ) c 1))).symm.trans
    (W3_main_arg6 m ρ c)

end Cert.KernelIdeal.Between

end
-- ==== Proof.LibStackPair.lean ====
/-
  Two arrays stacked along a new leading axis, read at an entry.

  Two `[a, b]` arrays are each given a leading unit axis and joined along it into a `[2, a, b]` array. Entry
  `(0, r, l)` of the stack is entry `(r, l)` of the first array, and entry `(1, r, l)` is entry `(r, l)` of the second.
-/
import Idealize.ShloMosaic.Lib.Pipeline.Value
import Idealize.ShloMosaic.Lib.ValueIdx

noncomputable section

namespace Idealize.ShloMosaic.StackPair

open Idealize.ShloMosaic Idealize.ShloMosaic.ValueIdx

variable {α : Type} {a b : ℕ}

/-- An `[a, b]` array given a leading unit axis reads, at `(u, r, l)`, its entry `(r, l)`. -/
theorem lift_apply (x : (⟨2, ![a, b]⟩ : Shape).Idx → α)
    (hb : (⟨2, ![a, b]⟩ : Shape).BroadcastsInDim ⟨3, ![1, a, b]⟩ (![1, 2] : Fin 2 → Fin 3))
    (u : Fin 1) (r : Fin a) (l : Fin b) :
    broadcastInDim ⟨3, ![1, a, b]⟩ (![1, 2] : Fin 2 → Fin 3) hb x (ix3 u r l) = x (ix2 r l) :=
  broadcastInDim_apply _ hb x _ (ix2 r l) (fun d => by
    match d with
    | ⟨0, _⟩ =>
      show r.val = if a = 1 then 0 else r.val
      split
      · have := r.isLt; omega
      · rfl
    | ⟨1, _⟩ =>
      show l.val = if b = 1 then 0 else l.val
      split
      · have := l.isLt; omega
      · rfl)

/-- The stack of two arrays at `(0, r, l)` is the first array at `(r, l)`. -/
theorem stack_fst (x y : (⟨2, ![a, b]⟩ : Shape).Idx → α)
    (hb : (⟨2, ![a, b]⟩ : Shape).BroadcastsInDim ⟨3, ![1, a, b]⟩ (![1, 2] : Fin 2 → Fin 3))
    (hc : Shape.Concatenates [⟨3, ![1, a, b]⟩, ⟨3, ![1, a, b]⟩] ⟨3, ![2, a, b]⟩ (0 : Fin 3))
    (r : Fin a) (l : Fin b) :
    concatenate ⟨3, ![2, a, b]⟩ (0 : Fin 3)
        [⟨⟨3, ![1, a, b]⟩, broadcastInDim ⟨3, ![1, a, b]⟩ (![1, 2] : Fin 2 → Fin 3) hb x⟩,
         ⟨⟨3, ![1, a, b]⟩, broadcastInDim ⟨3, ![1, a, b]⟩ (![1, 2] : Fin 2 → Fin 3) hb y⟩] hc (ix3 (0 : Fin 2) r l)
      = x (ix2 r l) := by
  rw [concatenate_pair_apply_left (t := ⟨3, ![2, a, b]⟩) (s₁ := ⟨3, ![1, a, b]⟩) (s₂ := ⟨3, ![1, a, b]⟩) (0 : Fin 3) _ _ hc (ix3 (0 : Fin 2) r l) rfl (ix3 (0 : Fin 1) r l)
    (fun d => by match d with | ⟨0, _⟩ => rfl | ⟨1, _⟩ => rfl | ⟨2, _⟩ => rfl)]
  exact lift_apply x hb 0 r l

/-- The stack of two arrays at `(1, r, l)` is the second array at `(r, l)`. -/
theorem stack_snd (x y : (⟨2, ![a, b]⟩ : Shape).Idx → α)
    (hb : (⟨2, ![a, b]⟩ : Shape).BroadcastsInDim ⟨3, ![1, a, b]⟩ (![1, 2] : Fin 2 → Fin 3))
    (hc : Shape.Concatenates [⟨3, ![1, a, b]⟩, ⟨3, ![1, a, b]⟩] ⟨3, ![2, a, b]⟩ (0 : Fin 3))
    (r : Fin a) (l : Fin b) :
    concatenate ⟨3, ![2, a, b]⟩ (0 : Fin 3)
        [⟨⟨3, ![1, a, b]⟩, broadcastInDim ⟨3, ![1, a, b]⟩ (![1, 2] : Fin 2 → Fin 3) hb x⟩,
         ⟨⟨3, ![1, a, b]⟩, broadcastInDim ⟨3, ![1, a, b]⟩ (![1, 2] : Fin 2 → Fin 3) hb y⟩] hc (ix3 (1 : Fin 2) r l)
      = y (ix2 r l) := by
  rw [concatenate_pair_apply_right (t := ⟨3, ![2, a, b]⟩) (s₁ := ⟨3, ![1, a, b]⟩) (s₂ := ⟨3, ![1, a, b]⟩) (0 : Fin 3) _ _ hc (ix3 (1 : Fin 2) r l) rfl rfl (ix3 (0 : Fin 1) r l)
    (fun d hd => by
      match d with
      | ⟨0, _⟩ => exact absurd rfl hd
      | ⟨1, _⟩ => rfl
      | ⟨2, _⟩ => rfl) rfl]
  exact lift_apply y hb 0 r l

end Idealize.ShloMosaic.StackPair

end
-- ==== Proof.KernelValue.lean ====
/-
  The whole program's result as one function of its arguments, over the extended reals.

  The first region leaves the projection x · W; the host forms the two sparse products from it and stacks them; the
  second region adds the bias and clamps below at zero. Each stretch finds the arguments it reads as launched, so the
  result array is one function of the seven launch arrays.
-/
import proofs.«171705_j7876970021469_1_alg».proof.Proof.KernelRun
import proofs.«171705_j7876970021469_1_alg».proof.Proof.BiasClamp
import proofs.«171705_j7876970021469_1_alg».proof.Proof.DenseProj
import proofs.«171705_j7876970021469_1_alg».proof.Proof.Between
import proofs.«171705_j7876970021469_1_alg».proof.Proof.LibStackPair
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.ValueIdx

/-- The result: both sparse products of the projected features, stacked, biased and clamped below at zero. -/
def result (x0 : (⟨S50000x512, .f32⟩ : BufTy).Contents (Elt Ideal)) (x1 : (⟨S2x1000000, .i32⟩ : BufTy).Contents (Elt Ideal))
    (x2 : (⟨S1000000, .f32⟩ : BufTy).Contents (Elt Ideal)) (x3 : (⟨S2x1000000, .i32⟩ : BufTy).Contents (Elt Ideal))
    (x4 : (⟨S1000000, .f32⟩ : BufTy).Contents (Elt Ideal)) (x5 : (⟨S512x128, .f32⟩ : BufTy).Contents (Elt Ideal))
    (x6 : (⟨S128, .f32⟩ : BufTy).Contents (Elt Ideal)) : (⟨S2x50000x128, .f32⟩ : BufTy).Contents (Elt Ideal) :=
  BiasClamp.biasClamp (F := Ideal)
    (Between.stack (F := Ideal) (Between.spmm (F := Ideal) (DenseProj.proj x0 x5) x1 x2)
      (Between.spmm (F := Ideal) (DenseProj.proj x0 x5) x3 x4)) x6

/-- Entry (0, r, l) of the result: the first sparse product plus the bias, clamped below at zero. -/
theorem result_fst (x0 : (⟨S50000x512, .f32⟩ : BufTy).Contents (Elt Ideal)) (x1 : (⟨S2x1000000, .i32⟩ : BufTy).Contents (Elt Ideal))
    (x2 : (⟨S1000000, .f32⟩ : BufTy).Contents (Elt Ideal)) (x3 : (⟨S2x1000000, .i32⟩ : BufTy).Contents (Elt Ideal))
    (x4 : (⟨S1000000, .f32⟩ : BufTy).Contents (Elt Ideal)) (x5 : (⟨S512x128, .f32⟩ : BufTy).Contents (Elt Ideal))
    (x6 : (⟨S128, .f32⟩ : BufTy).Contents (Elt Ideal)) (r : Fin 50000) (l : Fin 128) :
    result x0 x1 x2 x3 x4 x5 x6 (ix3 (0 : Fin 2) r l)
      = FloatOps.maximumf (F := Ideal) (FloatOps.addf (F := Ideal) (Between.spmm (F := Ideal) (DenseProj.proj x0 x5) x1 x2 (ix2 r l)) (x6 (ix1 l)))
          (FloatOps.ofBits (F := Ideal) .f32 0x00000000#32) := by
  unfold result BiasClamp.biasClamp Between.stack
  exact congrArg (fun v => FloatOps.maximumf (F := Ideal) (FloatOps.addf (F := Ideal) v (x6 (ix1 l))) (FloatOps.ofBits (F := Ideal) .f32 0x00000000#32))
    (StackPair.stack_fst (a := 50000) (b := 128) _ _ _ _ r l)

/-- Entry (1, r, l) of the result: the second sparse product plus the bias, clamped below at zero. -/
theorem result_snd (x0 : (⟨S50000x512, .f32⟩ : BufTy).Contents (Elt Ideal)) (x1 : (⟨S2x1000000, .i32⟩ : BufTy).Contents (Elt Ideal))
    (x2 : (⟨S1000000, .f32⟩ : BufTy).Contents (Elt Ideal)) (x3 : (⟨S2x1000000, .i32⟩ : BufTy).Contents (Elt Ideal))
    (x4 : (⟨S1000000, .f32⟩ : BufTy).Contents (Elt Ideal)) (x5 : (⟨S512x128, .f32⟩ : BufTy).Contents (Elt Ideal))
    (x6 : (⟨S128, .f32⟩ : BufTy).Contents (Elt Ideal)) (r : Fin 50000) (l : Fin 128) :
    result x0 x1 x2 x3 x4 x5 x6 (ix3 (1 : Fin 2) r l)
      = FloatOps.maximumf (F := Ideal) (FloatOps.addf (F := Ideal) (Between.spmm (F := Ideal) (DenseProj.proj x0 x5) x3 x4 (ix2 r l)) (x6 (ix1 l)))
          (FloatOps.ofBits (F := Ideal) .f32 0x00000000#32) := by
  unfold result BiasClamp.biasClamp Between.stack
  exact congrArg (fun v => FloatOps.maximumf (F := Ideal) (FloatOps.addf (F := Ideal) v (x6 (ix1 l))) (FloatOps.ofBits (F := Ideal) .f32 0x00000000#32))
    (StackPair.stack_snd (a := 50000) (b := 128) _ _ _ _ r l)

variable (m : (ℓ : Loc nD τ sig) → Buf (Elt Ideal) ℓ) (ρ : Dev nD → PrngReg)

/-- What the second region's write-backs leave is the result function of the launch arrays. -/
theorem left_eq (c : Dev nD) :
    (dat1 (V2 m ρ) c).arrAt 2 cfg1.N
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  rw [BiasClamp.final (V2 m ρ) c, Between.stacked_eq m ρ c, Between.bias_eq m ρ c, Between.pre_eq m ρ c,
    Between.idx1_eq m ρ c, Between.vals1_eq m ρ c, Between.idx2_eq m ρ c, Between.vals2_eq m ρ c,
    DenseProj.final (V0 m ρ) c]
  rfl

/-- Every weakly fair execution terminates, nothing faulting, with the result array at the result function of the
    launch arrays and every argument array as launched. -/
theorem run : θ_run defs (onTc (τ := τ) (main (F := Ideal))) ⟨m, fun _ => 0, ρ⟩ (fun r => ∀ c : Dev nD,
      r.2.mem ((c.tc : Thread nD τ).loc main_v38)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (left_eq m ρ c), (h c).2⟩) (run_named m ρ)

end Cert.KernelIdeal.Whole

end
-- ==== Proof.RefValue.lean ====
/-
  The reference, read at an entry.

  The reference projects the features on the host, forms the two sparse products, adds the bias to each, clamps each
  below at zero, and stacks the two clamped arrays. So entry (0, r, l) of its result is max (s1 (r, l) + bias l, 0)
  with s1 the first sparse product, and entry (1, r, l) the same of the second.
-/
import proofs.«171705_j7876970021469_1_alg».proof.Proof.Gen.ReferenceIdeal.Read
import proofs.«171705_j7876970021469_1_alg».proof.Proof.LibStackPair
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-- The bias vector stood up as one row and repeated over the node rows reads, at (r, l), its entry l. -/
theorem bias_rows_apply (x6 : (⟨S128, .f32⟩ : BufTy).Contents (Elt F)) (r : Fin 50000) (l : Fin 128) :
    val_main_v19 (F := F) x6 (ix2 r l) = x6 (ix1 l) := by
  rw [val_main_v19_apply, val_main_v18_apply]
  exact congrArg x6 (funext fun a => Fin.ext (by match a with | ⟨0, _⟩ => rfl))

/-- The second copy of the same rows. -/
theorem bias_rows_apply' (x6 : (⟨S128, .f32⟩ : BufTy).Contents (Elt F)) (r : Fin 50000) (l : Fin 128) :
    val_main_v39 (F := F) x6 (ix2 r l) = x6 (ix1 l) := by
  rw [val_main_v39_apply, val_main_v38_apply]
  exact congrArg x6 (funext fun a => Fin.ext (by match a with | ⟨0, _⟩ => rfl))

/-- Entry (0, r, l) of the reference's result: the first sparse product plus the bias, clamped below at zero. -/
theorem out_fst (x0 : (⟨S50000x512, .f32⟩ : BufTy).Contents (Elt F)) (x1 : (⟨S2x1000000, .i32⟩ : BufTy).Contents (Elt F))
    (x2 : (⟨S1000000, .f32⟩ : BufTy).Contents (Elt F)) (x3 : (⟨S2x1000000, .i32⟩ : BufTy).Contents (Elt F))
    (x4 : (⟨S1000000, .f32⟩ : BufTy).Contents (Elt F)) (x5 : (⟨S512x128, .f32⟩ : BufTy).Contents (Elt F))
    (x6 : (⟨S128, .f32⟩ : BufTy).Contents (Elt F)) (r : Fin 50000) (l : Fin 128) :
    val_main_v45 (F := F) x0 x1 x2 x3 x4 x5 x6 (ix3 (0 : Fin 2) r l)
      = FloatOps.maximumf (FloatOps.addf (val_main_v17 (F := F) x0 x1 x2 x5 (ix2 r l)) (x6 (ix1 l)))
          (FloatOps.ofBits .f32 0x00000000#32) := by
  unfold val_main_v45 val_main_v43 val_main_v44
  refine (StackPair.stack_fst (a := 50000) (b := 128) (val_main_v41 (F := F) x0 x1 x2 x5 x6)
    (val_main_v42 (F := F) x0 x3 x4 x5 x6) bcast_S50000x128_S1x50000x128_1_2
    concatenates_S1x50000x128_S1x50000x128_S2x50000x128_d0 r l).trans ?_
  rw [val_main_v41_apply, val_main_v20_apply, bias_rows_apply, val_main_call0_v0_apply, val_main_call0_cst_apply]

/-- Entry (1, r, l) of the reference's result: the second sparse product plus the bias, clamped below at zero. -/
theorem out_snd (x0 : (⟨S50000x512, .f32⟩ : BufTy).Contents (Elt F)) (x1 : (⟨S2x1000000, .i32⟩ : BufTy).Contents (Elt F))
    (x2 : (⟨S1000000, .f32⟩ : BufTy).Contents (Elt F)) (x3 : (⟨S2x1000000, .i32⟩ : BufTy).Contents (Elt F))
    (x4 : (⟨S1000000, .f32⟩ : BufTy).Contents (Elt F)) (x5 : (⟨S512x128, .f32⟩ : BufTy).Contents (Elt F))
    (x6 : (⟨S128, .f32⟩ : BufTy).Contents (Elt F)) (r : Fin 50000) (l : Fin 128) :
    val_main_v45 (F := F) x0 x1 x2 x3 x4 x5 x6 (ix3 (1 : Fin 2) r l)
      = FloatOps.maximumf (FloatOps.addf (val_main_v37 (F := F) x0 x3 x4 x5 (ix2 r l)) (x6 (ix1 l)))
          (FloatOps.ofBits .f32 0x00000000#32) := by
  unfold val_main_v45 val_main_v43 val_main_v44
  refine (StackPair.stack_snd (a := 50000) (b := 128) (val_main_v41 (F := F) x0 x1 x2 x5 x6)
    (val_main_v42 (F := F) x0 x3 x4 x5 x6) bcast_S50000x128_S1x50000x128_1_2
    concatenates_S1x50000x128_S1x50000x128_S2x50000x128_d0 r l).trans ?_
  rw [val_main_v42_apply, val_main_v40_apply, bias_rows_apply', val_main_call1_v0_apply, val_main_call1_cst_apply]

/-- The host's projection at an entry is the sum over the contracted axis. -/
theorem proj_apply (x0 : (⟨S50000x512, .f32⟩ : BufTy).Contents (Elt Ideal)) (x5 : (⟨S512x128, .f32⟩ : BufTy).Contents (Elt Ideal))
    (i : S50000x128.Idx) :
    val_main_v0 (F := Ideal) x0 x5 i
      = ∑ n : Fin 512, x0 (ix2 (⟨(i 0).val, (i 0).isLt⟩ : Fin 50000) n) * x5 (ix2 n (⟨(i 1).val, (i 1).isLt⟩ : Fin 128)) := by
  rw [val_main_v0_apply]
  refine Finset.sum_congr rfl fun k _ => ?_
  have el : lidx_main_v0 i k = ix2 (⟨(i 0).val, (i 0).isLt⟩ : Fin 50000) k :=
    funext fun a => Fin.ext (by match a with | ⟨0, _⟩ => rfl | ⟨1, _⟩ => rfl)
  have er : ridx_main_v0 i k = ix2 k (⟨(i 1).val, (i 1).isLt⟩ : Fin 128) :=
    funext fun a => Fin.ext (by match a with | ⟨0, _⟩ => rfl | ⟨1, _⟩ => rfl)
  rw [el, er]

end Cert.ReferenceIdeal.RefValue

end
-- ==== Proof.Bridge.lean ====
/-
  The two programs compute one function.

  Over the extended reals the device's projection and the host's are the same sums, so both programs form the two
  sparse products from the same projected features by the same host operations. The kernel stacks the two products and
  then adds the bias and clamps; the reference adds the bias and clamps each product and then stacks. Entry by entry
  both are max (s (r, l) + bias l, 0) of the product s the entry's leading coordinate names.
-/
import proofs.«171705_j7876970021469_1_alg».proof.Proof.KernelValue
import proofs.«171705_j7876970021469_1_alg».proof.Proof.RefValue

noncomputable section

namespace Cert.Proof.Bridge

open Idealize.ShloMosaic Idealize.ShloMosaic.ValueIdx
open Cert.ReferenceIdeal Cert.ReferenceIdeal.Read

/-- The host's projection is the device's: the same sum at every entry. -/
theorem proj_eq (x0 : (⟨S50000x512, .f32⟩ : BufTy).Contents (Elt Ideal)) (x5 : (⟨S512x128, .f32⟩ : BufTy).Contents (Elt Ideal)) :
    val_main_v0 (F := Ideal) x0 x5 = Cert.KernelIdeal.DenseProj.proj x0 x5 :=
  funext fun i => Cert.ReferenceIdeal.RefValue.proj_apply x0 x5 i

/-- The reference's first sparse product is the kernel's, of the same projected features. -/
theorem spmm_fst (x0 : (⟨S50000x512, .f32⟩ : BufTy).Contents (Elt Ideal)) (x1 : (⟨S2x1000000, .i32⟩ : BufTy).Contents (Elt Ideal))
    (x2 : (⟨S1000000, .f32⟩ : BufTy).Contents (Elt Ideal)) (x5 : (⟨S512x128, .f32⟩ : BufTy).Contents (Elt Ideal)) :
    val_main_v17 (F := Ideal) x0 x1 x2 x5
      = Cert.KernelIdeal.Between.spmm (F := Ideal) (Cert.KernelIdeal.DenseProj.proj x0 x5) x1 x2 := by
  rw [← proj_eq]
  rfl

/-- The reference's second sparse product is the kernel's, of the same projected features. -/
theorem spmm_snd (x0 : (⟨S50000x512, .f32⟩ : BufTy).Contents (Elt Ideal)) (x3 : (⟨S2x1000000, .i32⟩ : BufTy).Contents (Elt Ideal))
    (x4 : (⟨S1000000, .f32⟩ : BufTy).Contents (Elt Ideal)) (x5 : (⟨S512x128, .f32⟩ : BufTy).Contents (Elt Ideal)) :
    val_main_v37 (F := Ideal) x0 x3 x4 x5
      = Cert.KernelIdeal.Between.spmm (F := Ideal) (Cert.KernelIdeal.DenseProj.proj x0 x5) x3 x4 := by
  rw [← proj_eq]
  rfl

/-- The reference's result is the kernel's result function of the same arguments. -/
theorem result_eq (x0 : (⟨S50000x512, .f32⟩ : BufTy).Contents (Elt Ideal)) (x1 : (⟨S2x1000000, .i32⟩ : BufTy).Contents (Elt Ideal))
    (x2 : (⟨S1000000, .f32⟩ : BufTy).Contents (Elt Ideal)) (x3 : (⟨S2x1000000, .i32⟩ : BufTy).Contents (Elt Ideal))
    (x4 : (⟨S1000000, .f32⟩ : BufTy).Contents (Elt Ideal)) (x5 : (⟨S512x128, .f32⟩ : BufTy).Contents (Elt Ideal))
    (x6 : (⟨S128, .f32⟩ : BufTy).Contents (Elt Ideal)) :
    val_main_v45 (F := Ideal) x0 x1 x2 x3 x4 x5 x6 = Cert.KernelIdeal.Whole.result x0 x1 x2 x3 x4 x5 x6 := by
  funext j
  obtain ⟨b, r, l, rfl⟩ : ∃ (b : Fin 2) (r : Fin 50000) (l : Fin 128), j = ix3 b r l := ⟨j 0, j 1, j 2, eq_ix3 j⟩
  have hb : b = 0 ∨ b = 1 := by
    rcases b with ⟨v, hv⟩
    interval_cases v
    · exact Or.inl rfl
    · exact Or.inr rfl
  rcases hb with rfl | rfl
  · rw [Cert.ReferenceIdeal.RefValue.out_fst, Cert.KernelIdeal.Whole.result_fst, spmm_fst]
  · rw [Cert.ReferenceIdeal.RefValue.out_snd, Cert.KernelIdeal.Whole.result_snd, spmm_snd]

end Cert.Proof.Bridge

end
-- ==== Proof.lean ====
/-
  A two-branch graph convolution layer: a kernel against its reference, over the extended reals.

  Both programs take node features x [50000, 512], two graphs as index pairs [2, 1000000] with edge weights [1000000],
  a weight matrix W [512, 128] and a bias [128], and return [2, 50000, 128]: per graph, the sparse product of the
  graph with the projected features x · W, plus the bias, clamped below at zero.

  The kernel projects on the device (the operands pass through a narrower float format on the way in, the identity over
  the extended reals), forms the two sparse products on the host, stacks them, and adds the bias and clamps on the
  device. The reference does everything on the host, and adds the bias and clamps before it stacks. The two projections
  are the same sums, the host operations between are the same operations of the same values, and the bias and clamp act
  entry by entry, so they pass through the stacking: the two results are equal entry by entry. No step uses that the
  inputs are finite.

  The frames of the two device programs are the generated ones; the reference's frame is its generated run with the
  result dropped. The kernel's idealization rewrote nothing, so there is nothing to preserve.
-/
import proofs.«171705_j7876970021469_1_alg».proof.Defs
import proofs.«171705_j7876970021469_1_alg».proof.Proof.Gen.Kernel
import proofs.«171705_j7876970021469_1_alg».proof.Proof.Gen.Kernel.Frame
import proofs.«171705_j7876970021469_1_alg».proof.Proof.Gen.KernelIdeal
import proofs.«171705_j7876970021469_1_alg».proof.Proof.Gen.KernelIdeal.Frame
import proofs.«171705_j7876970021469_1_alg».proof.Proof.Gen.ReferenceIdeal
import proofs.«171705_j7876970021469_1_alg».proof.Proof.Gen.Pre_finite_inputs
import proofs.«171705_j7876970021469_1_alg».proof.Proof.Gen.ReferenceIdeal.Run
import proofs.«171705_j7876970021469_1_alg».proof.Proof.Gen.ReferenceIdeal.Read
import proofs.«171705_j7876970021469_1_alg».proof.Proof.KernelValue
import proofs.«171705_j7876970021469_1_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel's result
    function of the arguments, which the reference's run also ends at. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.Proof.Bridge.result_eq, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
